-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3072 : Shape := ⟨3, ![4, 2048, 3072]⟩
abbrev S4x2048x128 : Shape := ⟨3, ![4, 2048, 128]⟩
abbrev S4 : Shape := ⟨1, ![4]⟩
abbrev S4x2x8x4096x128 : Shape := ⟨5, ![4, 2, 8, 4096, 128]⟩
abbrev S3072x3072 : Shape := ⟨2, ![3072, 3072]⟩
abbrev S1024x3072 : Shape := ⟨2, ![1024, 3072]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S4x2x8x4096x128 : S_.BroadcastsInDim S4x2x8x4096x128 (![] : Fin 0 → Fin S4x2x8x4096x128.rank)
  reducesTo_S4x2x8x4096x128_S_d0_1_2_3_4 : S4x2x8x4096x128.ReducesTo [0, 1, 2, 3, 4] S_
  bcast_S_S3072x3072 : S_.BroadcastsInDim S3072x3072 (![] : Fin 0 → Fin S3072x3072.rank)
  reducesTo_S3072x3072_S_d0_1 : S3072x3072.ReducesTo [0, 1] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_arg6 : FVec F S1024x3072 .f32) (main_arg7 : FVec F S1024x3072 .f32) (main_arg8 : FVec F S3072x3072 .f32) (main_v13 : IVec S_ 1) (main_v16 : IVec S3072x3072 1) : IVec S_ 1 :=
  let main_c_5 : IVec S_ 1 := constantI S_ 1 1#1
  let main_v17 : IVec S_ 1 := (fun x v => Host.reduce IntOp.andi x v reducesTo_S3072x3072_S_d0_1 h_S_) main_v16 main_c_5
  let main_v18 : IVec S_ 1 := andi main_v13 main_v17
  let main_v19 : FVec F S1024x3072 .f32 := Host.absf main_arg6
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S1024x3072 .f32 := Host.absf main_arg7
  let main_cst_8 : FVec F S_ .f32 := constant S_ .f32 0x7F800000#32
  let main_v25 : FVec F S1024x3072 .f32 := broadcastInDim S1024x3072 ![] bcast_S_S1024x3072 main_cst_8
  let main_v26 : IVec S1024x3072 1 := cmpf .olt main_v24 main_v25
  let main_c_9 : IVec S_ 1 := constantI S_ 1 1#1
  let main_v27 : IVec S_ 1 := (fun x v => Host.reduce IntOp.andi x v reducesTo_S1024x3072_S_d0_1 h_S_) main_v26 main_c_9
  let main_v28 : IVec S_ 1 := andi main_v23 main_v27
  let main_v29 : FVec F S3072x3072 .f32 := Host.absf main_arg8
  let main_cst_10 : FVec F S_ .f32 := constant S_ .f32 0x7F800000#32
  let main_v30 : FVec F S3072x3072 .f32 := broadcastInDim S3072x3072 ![] bcast_S_S3072x3072 main_cst_10
  let main_v31 : IVec S3072x3072 1 := cmpf .olt main_v29 main_v30
  let main_c_11 : IVec S_ 1 := constantI S_ 1 1#1
  let main_v32 : IVec S_ 1 := (fun x v => Host.reduce IntOp.andi x v reducesTo_S3072x3072_S_d0_1 h_S_) main_v31 main_c_11
  let main_v33 : IVec S_ 1 := andi main_v28 main_v32
  main_v33

def fn {F : FTy → Type} [FloatOps F] (main_arg0 : FVec F S4x2048x3072 .f32) (main_arg1 : FVec F S4x2048x128 .f32) (main_arg2 : IVec S4 32) (main_arg3 : IVec S4 32) (main_arg4 : FVec F S4x2x8x4096x128 .f32) (main_arg5 : FVec F S3072x3072 .f32) (main_arg6 : FVec F S1024x3072 .f32) (main_arg7 : FVec F S1024x3072 .f32) (main_arg8 : FVec F S3072x3072 .f32) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x2x8x4096x128 .f32 := Host.absf main_arg4
  let main_cst_2 : FVec F S_ .f32 := constant S_ .f32 0x7F800000#32
  let main_v10 : FVec F S4x2x8x4096x128 .f32 := broadcastInDim S4x2x8x4096x128 ![] bcast_S_S4x2x8x4096x128 main_cst_2
  let main_v11 : IVec S4x2x8x4096x128 1 := cmpf .olt main_v9 main_v10
  let main_c_3 : IVec S_ 1 := constantI S_ 1 1#1
  let main_v12 : IVec S_ 1 := (fun x v => Host.reduce IntOp.andi x v reducesTo_S4x2x8x4096x128_S_d0_1_2_3_4 h_S_) main_v11 main_c_3
  let main_v13 : IVec S_ 1 := andi main_v8 main_v12
  let main_v14 : FVec F S3072x3072 .f32 := Host.absf main_arg5
  let main_cst_4 : FVec F S_ .f32 := constant S_ .f32 0x7F800000#32
  let main_v15 : FVec F S3072x3072 .f32 := broadcastInDim S3072x3072 ![] bcast_S_S3072x3072 main_cst_4
  let main_v16 : IVec S3072x3072 1 := cmpf .olt main_v14 main_v15
  fn_part1 (F := F) main_arg6 main_arg7 main_arg8 main_v13 main_v16
-- ==== Kernel.lean ====
abbrev S4x2048x3072 : Shape := ⟨3, ![4, 2048, 3072]⟩
abbrev S4x2048x128 : Shape := ⟨3, ![4, 2048, 128]⟩
abbrev S4 : Shape := ⟨1, ![4]⟩
abbrev S4x2x8x4096x128 : Shape := ⟨5, ![4, 2, 8, 4096, 128]⟩
abbrev S3072x3072 : Shape := ⟨2, ![3072, 3072]⟩
abbrev S1024x3072 : Shape := ⟨2, ![1024, 3072]⟩
abbrev S3072x512 : Shape := ⟨2, ![3072, 512]⟩
abbrev S512x3072 : Shape := ⟨2, ![512, 3072]⟩
abbrev S512x512 : Shape := ⟨2, ![512, 512]⟩
abbrev S8192x3072 : Shape := ⟨2, ![8192, 3072]⟩
abbrev S256x3072 : Shape := ⟨2, ![256, 3072]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x3072, .f32⟩
  | .hbm, ⟨1, _⟩ => ⟨S4x2048x128, .f32⟩
  | .hbm, ⟨2, _⟩ => ⟨S4, .i32⟩
  | .hbm, ⟨3, _⟩ => ⟨S4, .i32⟩
  | .hbm, ⟨4, _⟩ => ⟨S4x2x8x4096x128, .f32⟩
  | .hbm, ⟨5, _⟩ => ⟨S3072x3072, .f32⟩
  | .hbm, ⟨6, _⟩ => ⟨S1024x3072, .f32⟩
  | .hbm, ⟨7, _⟩ => ⟨S1024x3072, .f32⟩
  | .hbm, ⟨8, _⟩ => ⟨S3072x3072, .f32⟩
  | .hbm, ⟨9, _⟩ => ⟨S3072x3072, .bf16⟩
  | .hbm, ⟨10, _⟩ => ⟨S8192x3072, .f32⟩
  | .hbm, ⟨11, _⟩ => ⟨S8192x3072, .f32⟩
  | .hbm, ⟨12, _⟩ => ⟨S4x2048x3072, .f32⟩
  | .local _ .vmem, ⟨0, _⟩ => ⟨S3072x512, .f32⟩
  | .local _ .vmem, ⟨1, _⟩ => ⟨S3072x512, .f32⟩
  | .local _ .vmem, ⟨2, _⟩ => ⟨S512x3072, .f32⟩
  | .local _ .vmem, ⟨3, _⟩ => ⟨S512x3072, .f32⟩
  | .local _ .vmem, ⟨4, _⟩ => ⟨S512x512, .bf16⟩
  | .local _ .vmem, ⟨5, _⟩ => ⟨S512x512, .bf16⟩
  | .local _ .vmem, ⟨6, _⟩ => ⟨S256x3072, .f32⟩
  | .local _ .vmem, ⟨7, _⟩ => ⟨S256x3072, .f32⟩
  | .local _ .vmem, ⟨8, _⟩ => ⟨S3072x3072, .bf16⟩
  | .local _ .vmem, ⟨9, _⟩ => ⟨S256x3072, .f32⟩
  | .local _ .vmem, ⟨10, _⟩ => ⟨S256x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S3072x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S3072x512_S3072x512_0_0 : ∀ a, (![0, 0] : Fin 2 → Nat) a + S3072x512.size a ≤ S3072x512.size a
  h_S3072x512 : 0 < S3072x512.numel
  bitsLt_bf16_f32 : FTy.bits .bf16 < FTy.bits .f32
  inb_S512x3072_S512x3072_0_0 : ∀ a, (![0, 0] : Fin 2 → Nat) a + S512x3072.size a ≤ S512x3072.size a
  h_S512x3072 : 0 < S512x3072.numel
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S4x2048x3072_S8192x3072 : S4x2048x3072.ShapeCasts S8192x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S3072x3072_S3072x3072_0_0 : ∀ a, (![0, 0] : Fin 2 → Nat) a + S3072x3072.size a ≤ S3072x3072.size a
  h_S3072x3072 : 0 < S3072x3072.numel
  shapeCasts_S3072x3072_S3072x3072 : S3072x3072.ShapeCasts S3072x3072
  shapeCasts_S8192x3072_S4x2048x3072 : S8192x3072.ShapeCasts S4x2048x3072
  dot_S3072x512_S512x3072_S512x512_0_1_1_0_n_n_wf : DotDims.WF S3072x512 S512x3072 S512x512 [0] [1] [1] [0] [] []
  dot_S256x3072_S3072x3072_S256x3072_1_0_0_1_n_n_wf : DotDims.WF S256x3072 S3072x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3072x512.size a ≤ S3072x3072.size a
  hwx0_0 : ∀ i : grid0.Coords, EltTy.bits .f32 = 32 ∨ (Rect.block (s := S3072x3072) S3072x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3072.size a ≤ S3072x3072.size a
  hwx0_1 : ∀ i : grid0.Coords, EltTy.bits .f32 = 32 ∨ (Rect.block (s := S3072x3072) S512x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S3072x3072.size a
  hwx0_2 : ∀ i : grid0.Coords, EltTy.bits .bf16 = 32 ∨ (Rect.block (s := S3072x3072) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3072.size a ≤ S8192x3072.size a
  hwx1_0 : ∀ i : grid1.Coords, EltTy.bits .f32 = 32 ∨ (Rect.block (s := S8192x3072) S256x3072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3072x3072.size a ≤ S3072x3072.size a
  hwx1_1 : ∀ i : grid1.Coords, EltTy.bits .bf16 = 32 ∨ (Rect.block (s := S3072x3072) S3072x3072.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x3072.size a ≤ S8192x3072.size a
  hwx1_2 : ∀ i : grid1.Coords, EltTy.bits .f32 = 32 ∨ (Rect.block (s := S8192x3072) S256x3072.size (cc1_transform_2 i) (hinb1_2 i)).WholeWords (EltTy.packing .f32)

variable [Facts₀]

def dot_S3072x512_S512x3072_S512x512_0_1_1_0_n_n : DotDims S3072x512 S512x3072 S512x512 where
  lhsContracting := [0]
  rhsContracting := [1]
  lhsNonContracting := [1]
  rhsNonContracting := [0]
  lhsBatch := []
  rhsBatch := []
  wf := dot_S3072x512_S512x3072_S512x512_0_1_1_0_n_n_wf
def dot_S256x3072_S3072x3072_S256x3072_1_0_0_1_n_n : DotDims S256x3072 S3072x3072 S256x3072 where
  lhsContracting := [1]
  rhsContracting := [0]
  lhsNonContracting := [0]
  rhsNonContracting := [1]
  lhsBatch := []
  rhsBatch := []
  wf := dot_S256x3072_S3072x3072_S256x3072_1_0_0_1_n_n_wf

abbrev win0_0 : Pipeline.Window sig grid0 :=
  Pipeline.Window.ofSpec (Memref.whole main_arg5) S3072x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S512x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S3072x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x3072.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x3072 : Shape := ⟨3, ![4, 2048, 3072]⟩
abbrev S4x2048x128 : Shape := ⟨3, ![4, 2048, 128]⟩
abbrev S4 : Shape := ⟨1, ![4]⟩
abbrev S4x2x8x4096x128 : Shape := ⟨5, ![4, 2, 8, 4096, 128]⟩
abbrev S3072x3072 : Shape := ⟨2, ![3072, 3072]⟩
abbrev S1024x3072 : Shape := ⟨2, ![1024, 3072]⟩
abbrev S4x2048x1024 : Shape := ⟨3, ![4, 2048, 1024]⟩
abbrev S4x2048x24x128 : Shape := ⟨4, ![4, 2048, 24, 128]⟩
abbrev S4x24x2048x128 : Shape := ⟨4, ![4, 24, 2048, 128]⟩
abbrev S4x2048x8x128 : Shape := ⟨4, ![4, 2048, 8, 128]⟩
abbrev S4x8x2048x128 : Shape := ⟨4, ![4, 8, 2048, 128]⟩
abbrev S4x8x4x2048x128 : Shape := ⟨5, ![4, 8, 4, 2048, 128]⟩
abbrev S4x32x2048x128 : Shape := ⟨4, ![4, 32, 2048, 128]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S4x2048x128, .f32⟩
  | .hbm, ⟨2, _⟩ => ⟨S4, .i32⟩
  | .hbm, ⟨3, _⟩ => ⟨S4, .i32⟩
  | .hbm, ⟨4, _⟩ => ⟨S4x2x8x4096x128, .f32⟩
  | .hbm, ⟨5, _⟩ => ⟨S3072x3072, .f32⟩
  | .hbm, ⟨6, _⟩ => ⟨S1024x3072, .f32⟩
  | .hbm, ⟨7, _⟩ => ⟨S1024x3072, .f32⟩
  | .hbm, ⟨8, _⟩ => ⟨S3072x3072, .f32⟩
  | .hbm, ⟨9, _⟩ => ⟨S4x2048x3072, .f32⟩
  | .hbm, ⟨10, _⟩ => ⟨S4x2048x1024, .f32⟩
  | .hbm, ⟨11, _⟩ => ⟨S4x2048x1024, .f32⟩
  | .hbm, ⟨12, _⟩ => ⟨S4x2048x24x128, .f32⟩
  | .hbm, ⟨13, _⟩ => ⟨S4x24x2048x128, .f32⟩
  | .hbm, ⟨14, _⟩ => ⟨S4x2048x8x128, .f32⟩
  | .hbm, ⟨15, _⟩ => ⟨S4x8x2048x128, .f32⟩
  | .hbm, ⟨16, _⟩ => ⟨S4x2048x8x128, .f32⟩
  | .hbm, ⟨17, _⟩ => ⟨S4x8x2048x128, .f32⟩
  | .hbm, ⟨18, _⟩ => ⟨S4x8x4x2048x128, .f32⟩
  | .hbm, ⟨19, _⟩ => ⟨S4x32x2048x128, .f32⟩
  | .hbm, ⟨20, _⟩ => ⟨S4x8x4x2048x128, .f32⟩
  | .hbm, ⟨21, _⟩ => ⟨S4x32x2048x128, .f32⟩
  | .hbm, ⟨22, _⟩ => ⟨S_, .f32⟩
  | .hbm, ⟨23, _⟩ => ⟨S4x24x2048x128, .f32⟩
  | .hbm, ⟨24, _⟩ => ⟨S4x24x2048x128, .f32⟩
  | .hbm, ⟨25, _⟩ => ⟨S4x2048x24x128, .f32⟩
  | .hbm, ⟨26, _⟩ => ⟨S4x2048x3072, .f32⟩
  | .hbm, ⟨27, _⟩ => ⟨S4x2048x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  shapeCasts_S4x2048x3072_S4x2048x24x128 : S4x2048x3072.ShapeCasts S4x2048x24x128
  transposes_S4x2048x24x128_S4x24x2048x128_0_2_1_3 : S4x2048x24x128.Transposes [0, 2, 1, 3] S4x24x2048x128
  shapeCasts_S4x2048x1024_S4x2048x8x128 : S4x2048x1024.ShapeCasts S4x2048x8x128
  transposes_S4x2048x8x128_S4x8x2048x128_0_2_1_3 : S4x2048x8x128.Transposes [0, 2, 1, 3] S4x8x2048x128
  bcast_S4x8x2048x128_S4x8x4x2048x128_0_1_3_4 : S4x8x2048x128.BroadcastsInDim S4x8x4x2048x128 (![0, 1, 3, 4] : Fin 4 → Fin S4x8x4x2048x128.rank)
  shapeCasts_S4x8x4x2048x128_S4x32x2048x128 : S4x8x4x2048x128.ShapeCasts S4x32x2048x128
  bcast_S_S4x24x2048x128 : S_.BroadcastsInDim S4x24x2048x128 (![] : Fin 0 → Fin S4x24x2048x128.rank)
  transposes_S4x24x2048x128_S4x2048x24x128_0_2_1_3 : S4x24x2048x128.Transposes [0, 2, 1, 3] S4x2048x24x128
  shapeCasts_S4x2048x24x128_S4x2048x3072 : S4x2048x24x128.ShapeCasts S4x2048x3072
  dot_S4x2048x3072_S3072x3072_S4x2048x3072_2_1_01_0_n_n_wf : DotDims.WF S4x2048x3072 S3072x3072 S4x2048x3072 [2] [1] [0, 1] [0] [] []
  dot_S4x2048x3072_S1024x3072_S4x2048x1024_2_1_01_0_n_n_wf : DotDims.WF S4x2048x3072 S1024x3072 S4x2048x1024 [2] [1] [0, 1] [0] [] []

variable [Facts₀]

def dot_S4x2048x3072_S3072x3072_S4x2048x3072_2_1_01_0_n_n : DotDims S4x2048x3072 S3072x3072 S4x2048x3072 where
  lhsContracting := [2]
  rhsContracting := [1]
  lhsNonContracting := [0, 1]
  rhsNonContracting := [0]
  lhsBatch := []
  rhsBatch := []
  wf := dot_S4x2048x3072_S3072x3072_S4x2048x3072_2_1_01_0_n_n_wf
def dot_S4x2048x3072_S1024x3072_S4x2048x1024_2_1_01_0_n_n : DotDims S4x2048x3072 S1024x3072 S4x2048x1024 where
  lhsContracting := [2]
  rhsContracting := [1]
  lhsNonContracting := [0, 1]
  rhsNonContracting := [0]
  lhsBatch := []
  rhsBatch := []
  wf := dot_S4x2048x3072_S1024x3072_S4x2048x1024_2_1_01_0_n_n_wf

class Facts : Prop extends Facts₀ where

variable [Facts]
-- ==== Proof.Spec.lean ====
/-
  The mathematics of the claim, stated with no program in sight.

  An activation array x of shape [4, 2048, 3072] is projected by a weight table wq (rows d, columns h), every entry
  of the projection is multiplied by one fixed scale, and the result is projected again by a second table wo
  (rows o, columns d):

      twoStep x wq wo (b, t, o) = Σ_d ((Σ_h x(b,t,h) · wq(d,h)) · scale) · wo(o,d).

  The same array can be had with ONE product per row, against a table folded beforehand,

      foldedW wq wo (h, o) = (Σ_d wq(d,h) · wo(o,d)) · scale,
      oneStep x wq wo (b, t, o) = Σ_h x(b,t,h) · foldedW wq wo (h, o).

  On real entries the two agree: both are the double sum Σ_h Σ_d x(b,t,h) · wq(d,h) · wo(o,d) · scale, by
  distributing each product over the inner sum and exchanging the two sums. On the extended reals distributivity
  fails at the infinities, so the law is stated for arrays whose entries are all real numbers; the scale is a
  fixed finite number.
-/
import Idealize.ShloMosaic.PureOps.Ideal
import Idealize.ShloMosaic.Lib.ValueIdx

noncomputable section

open scoped BigOperators

namespace Cert.FoldedProj

open Idealize.ShloMosaic Idealize.ShloMosaic.ValueIdx

/-- Activations: batch, position, feature. -/
abbrev Act := (⟨3, ![4, 2048, 3072]⟩ : Shape).Idx → EReal
/-- The activations with batch and position flattened into one row axis. -/
abbrev Rows := (⟨2, ![8192, 3072]⟩ : Shape).Idx → EReal
/-- A square weight table. -/
abbrev Wt := (⟨2, ![3072, 3072]⟩ : Shape).Idx → EReal

/-- The scale every projected entry is multiplied by: one fixed single-precision word, read exactly. -/
def scale : EReal := Ideal.ofBits .f32 0x3DB504F3#32

/-- The scale is a real number (the word's exponent field is not all ones). -/
theorem scale_real : ∃ r : ℝ, scale = (r : EReal) := by
  unfold scale
  simp [Ideal.ofBits, Ideal.ieee]
  exact ⟨_, (EReal.coe_mul _ _).symm⟩

/-- One entry of: project by wq, scale, project by wo. -/
def twoStepAt (x : Act) (wq wo : Wt) (b : Fin 4) (t : Fin 2048) (o : Fin 3072) : EReal :=
  ∑ d : Fin 3072, ((∑ h : Fin 3072, x (ix3 b t h) * wq (ix2 d h)) * scale) * wo (ix2 o d)

/-- Project by wq, scale, project by wo. -/
def twoStep (x : Act) (wq wo : Wt) : Act := fun i => twoStepAt x wq wo (i 0) (i 1) (i 2)

/-- One entry of the folded table: column h of wq against row o of wo, scaled. -/
def foldedAt (wq wo : Wt) (h o : Fin 3072) : EReal :=
  (∑ d : Fin 3072, wq (ix2 d h) * wo (ix2 o d)) * scale

/-- The folded table. -/
def foldedW (wq wo : Wt) : Wt := fun j => foldedAt wq wo (j 0) (j 1)

/-- One entry of the single product against the folded table. -/
def oneStepAt (x : Act) (wq wo : Wt) (b : Fin 4) (t : Fin 2048) (o : Fin 3072) : EReal :=
  ∑ h : Fin 3072, x (ix3 b t h) * foldedAt wq wo h o

/-- The single product against the folded table. -/
def oneStep (x : Act) (wq wo : Wt) : Act := fun i => oneStepAt x wq wo (i 0) (i 1) (i 2)

/-- A finite sum of real numbers, each read as an extended real, is the real sum read as an extended real. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The law over the reals: distributing over the inner sums and exchanging them. -/
theorem real_law {H D : Type} [Fintype H] [Fintype D] (x : H → ℝ) (a : D → H → ℝ) (w : D → ℝ) (s : ℝ) :
    ∑ h, x h * ((∑ d, a d h * w d) * s) = ∑ d, ((∑ h, x h * a d h) * s) * w d := by
  simp only [Finset.sum_mul, Finset.mul_sum]
  rw [Finset.sum_comm]
  refine Finset.sum_congr rfl fun d _ => Finset.sum_congr rfl fun h _ => ?_
  ring

/-- On arrays of real entries the single product against the folded table is the two projections with the scale
    between them, entry by entry. -/
theorem oneStepAt_eq_twoStepAt (x : Act) (wq wo : Wt)
    (hx : ∀ i, ∃ r : ℝ, x i = (r : EReal)) (hq : ∀ j, ∃ r : ℝ, wq j = (r : EReal)) (ho : ∀ j, ∃ r : ℝ, wo j = (r : EReal))
    (b : Fin 4) (t : Fin 2048) (o : Fin 3072) :
    oneStepAt x wq wo b t o = twoStepAt x wq wo b t o := by
  obtain ⟨s, hs⟩ := scale_real
  choose x' hx' using hx
  choose q' hq' using hq
  choose o' ho' using ho
  unfold oneStepAt twoStepAt foldedAt
  simp only [hx', hq', ho', hs, ← EReal.coe_mul, coe_sum]
  exact congrArg _ (real_law (fun h => x' (ix3 b t h)) (fun d h => q' (ix2 d h)) (fun d => o' (ix2 o d)) s)

/-- The same, as whole arrays. -/
theorem oneStep_eq_twoStep (x : Act) (wq wo : Wt)
    (hx : ∀ i, ∃ r : ℝ, x i = (r : EReal)) (hq : ∀ j, ∃ r : ℝ, wq j = (r : EReal)) (ho : ∀ j, ∃ r : ℝ, wo j = (r : EReal)) :
    oneStep x wq wo = twoStep x wq wo :=
  funext fun i => oneStepAt_eq_twoStepAt x wq wo hx hq ho (i 0) (i 1) (i 2)

end Cert.FoldedProj

end
-- ==== Proof.KernelRun.lean ====
/-
  The idealized kernel program's run, with its result NAMED.

  The program is two kernel regions among stretches of host operations. The generated frame folds the buffer
  contents through those four segments — W0 at launch, W1 after the folding region, W2 after the reshape of the
  activations, W3 after the main region, W4 after the reshape of the product — and proves that every weakly fair
  execution terminates, without a fault, in a state whose unscoped buffers hold W4. It then keeps only what W4 says
  of the argument arrays. Here the same run is stated keeping also what W4 says of the result buffer: the result
  ends at W4's contents there, and the arguments end as launched.
-/
import proofs.«137236_j29360396436022_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.Payloads.lean ====
/-
  What each kernel body stores, read at one index of the stored block, at the extended reals.

  The folding kernel holds a block of wq with all 3072 rows and 512 of its columns, and a block of wo with 512 of
  its rows and all 3072 columns. It contracts the ROW axis of the first against the COLUMN axis of the second
  into a zero accumulator and multiplies every entry by the scale; the changes of float format on the way are the
  identity at the extended reals. So entry (p, q) of what it stores is (Σ_d a(d,p) · w(q,d)) · scale.

  The main kernel holds 256 rows of the flattened activations and the whole folded table; it multiplies them as
  matrices into a zero accumulator, so entry (r, o) of what it stores is Σ_h x(r,h) · w(h,o). Its two casts to the
  shape a value already has change nothing.
-/
import proofs.«137236_j29360396436022_2_alg».proof.Proof.Gen.KernelIdeal.Skeleton
import proofs.«137236_j29360396436022_2_alg».proof.Proof.LibOneAxisDot
import proofs.«137236_j29360396436022_2_alg».proof.Proof.Spec
import Idealize.ShloMosaic.Lib.Pipeline.Value

noncomputable section

open scoped BigOperators

namespace Cert.KernelIdeal.Payloads

open Idealize.ShloMosaic Idealize.ShloMosaic.ValueIdx Cert.KernelIdeal Cert.KernelIdeal.Gen

/-- The folding product's dimension numbers: one contracted axis of extent 3072. -/
abbrev foldDims := dot_S3072x512_S512x3072_S512x512_0_1_1_0_n_n
/-- The main product's dimension numbers: one contracted axis of extent 3072. -/
abbrev mainDims := dot_S256x3072_S3072x3072_S256x3072_1_0_0_1_n_n

/-- The folding product's left operand, free axis: its column is the output's first coordinate. -/
theorem fold_lhs_free (i : S512x512.Idx) (q : foldDims.contr.Idx) : (foldDims.lhsIdx i q 1).val = (i 0).val := by
  unfold DotDims.lhsIdx
  rw [dif_neg (show ¬(1 : Fin S3072x512.rank) ∈ foldDims.lhsBatch by decide),
    dif_pos (show (1 : Fin S3072x512.rank) ∈ foldDims.lhsNonContracting by decide)]
  rfl
/-- The folding product's left operand, contracted axis: its row is the contraction index. -/
theorem fold_lhs_contr (i : S512x512.Idx) (q : foldDims.contr.Idx) :
    (foldDims.lhsIdx i q 0).val = (q ⟨0, by decide⟩).val :=
  foldDims.lhsIdx_val_of_single rfl i q
/-- The folding product's right operand, free axis: its row is the output's second coordinate. -/
theorem fold_rhs_free (i : S512x512.Idx) (q : foldDims.contr.Idx) : (foldDims.rhsIdx i q 0).val = (i 1).val := by
  unfold DotDims.rhsIdx
  rw [dif_neg (show ¬(0 : Fin S512x3072.rank) ∈ foldDims.rhsBatch by decide),
    dif_pos (show (0 : Fin S512x3072.rank) ∈ foldDims.rhsNonContracting by decide)]
  rfl
/-- The folding product's right operand, contracted axis: its column is the contraction index. -/
theorem fold_rhs_contr (i : S512x512.Idx) (q : foldDims.contr.Idx) :
    (foldDims.rhsIdx i q 1).val = (q ⟨0, by decide⟩).val :=
  foldDims.rhsIdx_val_of_single rfl i q

/-- In the folding product, output entry (p, q) reads the left block at (d, p) for the d-th contraction index. -/
theorem fold_lhs (p q : Fin 512) (k : Fin 3072) :
    foldDims.lhsIdx (ix2 p q) ((contrEquiv1 foldDims 3072 rfl rfl).symm k) = ix2 k p :=
  funext fun a => Fin.ext (by
    match a with
    | ⟨0, _⟩ => exact (fold_lhs_contr _ _).trans (contrEquiv1_symm_val foldDims 3072 rfl rfl k)
    | ⟨1, _⟩ => exact fold_lhs_free _ _)

/-- In the folding product, output entry (p, q) reads the right block at (q, d). -/
theorem fold_rhs (p q : Fin 512) (k : Fin 3072) :
    foldDims.rhsIdx (ix2 p q) ((contrEquiv1 foldDims 3072 rfl rfl).symm k) = ix2 q k :=
  funext fun a => Fin.ext (by
    match a with
    | ⟨0, _⟩ => exact fold_rhs_free _ _
    | ⟨1, _⟩ => exact (fold_rhs_contr _ _).trans (contrEquiv1_symm_val foldDims 3072 rfl rfl k))

/-- Entry (p, q) of what the folding kernel stores: column p of its first block against row q of its second,
    scaled. -/
theorem fold_pay_apply (x0 : Vec Ideal S3072x512 .f32) (x1 : Vec Ideal S512x3072 .f32) (p q : Fin 512) :
    k0_pay1 (F := Ideal) x0 x1 (ix2 p q)
      = (∑ d : Fin 3072, x0 (ix2 d p) * x1 (ix2 q d)) * Cert.FoldedProj.scale := by
  unfold k0_pay1
  refine congrArg (fun z : EReal => z * Cert.FoldedProj.scale) ?_
  exact Cert.Lib.OneAxisDot.matmul_zero_apply_at foldDims 3072 rfl rfl none _ _ (ix2 p q)
    (fun k => ix2 k p) (fun k => ix2 q k) (fold_lhs p q) (fold_rhs p q)

/-- The main product's left operand, free axis: its row is the output's row. -/
theorem main_lhs_free (i : S256x3072.Idx) (q : mainDims.contr.Idx) : (mainDims.lhsIdx i q 0).val = (i 0).val := by
  unfold DotDims.lhsIdx
  rw [dif_neg (show ¬(0 : Fin S256x3072.rank) ∈ mainDims.lhsBatch by decide),
    dif_pos (show (0 : Fin S256x3072.rank) ∈ mainDims.lhsNonContracting by decide)]
  rfl
/-- The main product's left operand, contracted axis: its column is the contraction index. -/
theorem main_lhs_contr (i : S256x3072.Idx) (q : mainDims.contr.Idx) :
    (mainDims.lhsIdx i q 1).val = (q ⟨0, by decide⟩).val :=
  mainDims.lhsIdx_val_of_single rfl i q
/-- The main product's right operand, contracted axis: its row is the contraction index. -/
theorem main_rhs_contr (i : S256x3072.Idx) (q : mainDims.contr.Idx) :
    (mainDims.rhsIdx i q 0).val = (q ⟨0, by decide⟩).val :=
  mainDims.rhsIdx_val_of_single rfl i q
/-- The main product's right operand, free axis: its column is the output's column. -/
theorem main_rhs_free (i : S256x3072.Idx) (q : mainDims.contr.Idx) : (mainDims.rhsIdx i q 1).val = (i 1).val := by
  unfold DotDims.rhsIdx
  rw [dif_neg (show ¬(1 : Fin S3072x3072.rank) ∈ mainDims.rhsBatch by decide),
    dif_pos (show (1 : Fin S3072x3072.rank) ∈ mainDims.rhsNonContracting by decide)]
  rfl

/-- In the main product, output entry (r, o) reads the left block at (r, h). -/
theorem main_lhs (r : Fin 256) (o : Fin 3072) (k : Fin 3072) :
    mainDims.lhsIdx (ix2 r o) ((contrEquiv1 mainDims 3072 rfl rfl).symm k) = ix2 r k :=
  funext fun a => Fin.ext (by
    match a with
    | ⟨0, _⟩ => exact main_lhs_free _ _
    | ⟨1, _⟩ => exact (main_lhs_contr _ _).trans (contrEquiv1_symm_val mainDims 3072 rfl rfl k))

/-- In the main product, output entry (r, o) reads the table at (h, o). -/
theorem main_rhs (r : Fin 256) (o : Fin 3072) (k : Fin 3072) :
    mainDims.rhsIdx (ix2 r o) ((contrEquiv1 mainDims 3072 rfl rfl).symm k) = ix2 k o :=
  funext fun a => Fin.ext (by
    match a with
    | ⟨0, _⟩ => exact (main_rhs_contr _ _).trans (contrEquiv1_symm_val mainDims 3072 rfl rfl k)
    | ⟨1, _⟩ => exact main_rhs_free _ _)

/-- Entry (r, o) of what the main kernel stores: row r of its activation block against column o of the table. -/
theorem main_pay_apply (x0 : Vec Ideal S256x3072 .f32) (x1 : Vec Ideal S3072x3072 .bf16) (r : Fin 256) (o : Fin 3072) :
    k1_pay1 (F := Ideal) x0 x1 (ix2 r o) = ∑ h : Fin 3072, x0 (ix2 r h) * x1 (ix2 h o) := by
  unfold k1_pay1
  rw [shapeCast_self, shapeCast_self]
  exact Cert.Lib.OneAxisDot.matmul_zero_apply_at mainDims 3072 rfl rfl none _ _ (ix2 r o)
    (fun k => ix2 r k) (fun k => ix2 k o) (main_lhs r o) (main_rhs r o)

end Cert.KernelIdeal.Payloads

end
-- ==== Proof.FoldBlock.lean ====
/-
  The array the folding kernel leaves behind, as one function of the two weight tables.

  The kernel runs on a 6 × 6 grid. At grid point (H, O) it is handed columns 512·H … 512·H+511 of wq (all 3072 rows)
  and rows 512·O … 512·O+511 of wo (all 3072 columns), and writes the 512 × 512 block (H, O) of a 3072 × 3072 table.
  Entry (p, q) of that block is column 512·H+p of wq against row 512·O+q of wo, scaled — which is entry
  (512·H+p, 512·O+q) of the folded table of the specification. So every block written is the matching block of ONE
  whole-array function, and since the 36 blocks tile the table, the table ends holding that function everywhere.

  Everything is stated at the contents V the region finds its arrays at; nothing here looks at how V came about.
-/
import proofs.«137236_j29360396436022_2_alg».proof.Proof.Gen.KernelIdeal.Frame
import proofs.«137236_j29360396436022_2_alg».proof.Proof.Payloads
import Idealize.ShloMosaic.Lib.Pipeline.Value

noncomputable section

open scoped BigOperators

namespace Cert.KernelIdeal.FoldValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- How the three windows move over the grid, decided point by point: the wq window stays on block row 0 and its
    block column is the output's block row; the wo window's block row is the output's block column and it stays on
    block column 0; the output's block indices are below 6. -/
theorem moves : ∀ t : Fin cfg0.N,
    win0_0.index t (0 : Fin 2) = 0 ∧ win0_0.index t (1 : Fin 2) = win0_2.index t (0 : Fin 2)
    ∧ win0_1.index t (0 : Fin 2) = win0_2.index t (1 : Fin 2) ∧ win0_1.index t (1 : Fin 2) = 0
    ∧ win0_2.index t (0 : Fin 2) ≤ 5 ∧ win0_2.index t (1 : Fin 2) ≤ 5 :=
  (by decide +kernel : ∀ t : Fin grid0.N, _)

/-- Every block of the 6 × 6 tiling is some grid point's. -/
theorem every_block : ∀ (q0 q1 : Fin 6), ∃ t : Fin cfg0.N, win0_2.index t = ![q0.val, q1.val] :=
  (by decide +kernel : ∀ (q0 q1 : Fin 6), ∃ t : Fin grid0.N, win0_2.index t = ![q0.val, q1.val])

/-- The wq block at a point, entry (d, p): wq at row d and column 512·H + p, H the point's block column. -/
theorem read_wq (c : Dev nD) (t : Fin cfg0.N) (H : Nat) (hH : H ≤ 5)
    (e0 : win0_0.index t (0 : Fin 2) = 0) (e1 : win0_0.index t (1 : Fin 2) = H) (d : Fin 3072) (p : Fin 512) :
    iblk0 V c 0 t (ix2 d p) = V c main_arg5 (ix2 d (⟨H * 512 + p.val, by omega⟩ : Fin 3072)) := by
  show V c main_arg5 (((cfg0.win 0).blk t).view.emb (ix2 d p)) = _
  refine congrArg (V c main_arg5) (funext fun a => Fin.ext ?_)
  match a with
  | ⟨0, _⟩ => show win0_0.index t (0 : Fin 2) * 3072 + 1 * d.val = d.val; omega
  | ⟨1, _⟩ => show win0_0.index t (1 : Fin 2) * 512 + 1 * p.val = H * 512 + p.val; omega

/-- The wo block at a point, entry (q, d): wo at row 512·O + q and column d, O the point's block row. -/
theorem read_wo (c : Dev nD) (t : Fin cfg0.N) (O : Nat) (hO : O ≤ 5)
    (e0 : win0_1.index t (0 : Fin 2) = O) (e1 : win0_1.index t (1 : Fin 2) = 0) (q : Fin 512) (d : Fin 3072) :
    iblk0 V c 1 t (ix2 q d) = V c main_arg8 (ix2 (⟨O * 512 + q.val, by omega⟩ : Fin 3072) d) := by
  show V c main_arg8 (((cfg0.win 1).blk t).view.emb (ix2 q d)) = _
  refine congrArg (V c main_arg8) (funext fun a => Fin.ext ?_)
  match a with
  | ⟨0, _⟩ => show win0_1.index t (0 : Fin 2) * 512 + 1 * q.val = O * 512 + q.val; omega
  | ⟨1, _⟩ => show win0_1.index t (1 : Fin 2) * 3072 + 1 * d.val = d.val; omega

/-- The folded table at an index whose coordinates are known as numbers. -/
theorem folded_at (wq wo : Cert.FoldedProj.Wt) (i : S3072x3072.Idx) (h o : Fin 3072)
    (h0 : (i 0).val = h.val) (h1 : (i 1).val = o.val) :
    Cert.FoldedProj.foldedW wq wo i = Cert.FoldedProj.foldedAt wq wo h o := by
  have : i = ix2 h o := funext fun a => Fin.ext (by
    match a with
    | ⟨0, _⟩ => exact h0
    | ⟨1, _⟩ => exact h1)
  subst this
  rfl

/-- What a point stores, entry (p, q), from blocks that ARE the tables read at the point's offsets: the folded
    table's entry at (512·H + p, 512·O + q). -/
theorem stored_entry (wq wo : Cert.FoldedProj.Wt) (x0 : Vec Ideal S3072x512 .f32) (x1 : Vec Ideal S512x3072 .f32)
    (H O : Nat) (hH : H ≤ 5) (hO : O ≤ 5)
    (r0 : ∀ (d : Fin 3072) (p : Fin 512), x0 (ix2 d p) = wq (ix2 d (⟨H * 512 + p.val, by omega⟩ : Fin 3072)))
    (r1 : ∀ (q : Fin 512) (d : Fin 3072), x1 (ix2 q d) = wo (ix2 (⟨O * 512 + q.val, by omega⟩ : Fin 3072) d))
    (p q : Fin 512) :
    k0_pay1 (F := Ideal) x0 x1 (ix2 p q)
      = Cert.FoldedProj.foldedAt wq wo (⟨H * 512 + p.val, by omega⟩ : Fin 3072) (⟨O * 512 + q.val, by omega⟩ : Fin 3072) := by
  rw [Payloads.fold_pay_apply]
  unfold Cert.FoldedProj.foldedAt
  refine congrArg (fun z : EReal => z * Cert.FoldedProj.scale) (Finset.sum_congr rfl fun d _ => ?_)
  rw [r0 d p, r1 q d]

/-- The same at any index j of the stored block, its two coordinates read as numbers. -/
theorem stored_at (wq wo : Cert.FoldedProj.Wt) (x0 : Vec Ideal S3072x512 .f32) (x1 : Vec Ideal S512x3072 .f32)
    (H O : Nat) (hH : H ≤ 5) (hO : O ≤ 5)
    (r0 : ∀ (d : Fin 3072) (p : Fin 512), x0 (ix2 d p) = wq (ix2 d (⟨H * 512 + p.val, by omega⟩ : Fin 3072)))
    (r1 : ∀ (q : Fin 512) (d : Fin 3072), x1 (ix2 q d) = wo (ix2 (⟨O * 512 + q.val, by omega⟩ : Fin 3072) d))
    (j : S512x512.Idx) :
    k0_pay1 (F := Ideal) x0 x1 j
      = Cert.FoldedProj.foldedAt wq wo (⟨H * 512 + (j 0).val, by have h : (j 0).val < 512 := (j 0).isLt; omega⟩ : Fin 3072)
          (⟨O * 512 + (j 1).val, by have h : (j 1).val < 512 := (j 1).isLt; omega⟩ : Fin 3072) := by
  obtain ⟨p, q, rfl⟩ : ∃ (p q : Fin 512), j = ix2 p q := ⟨j 0, j 1, eq_ix2 j⟩
  exact stored_entry wq wo x0 x1 H O hH hO r0 r1 p q

/-- WHAT POINT t WRITES BACK is block t of the folded table of the two weight tables as the region finds them. -/
theorem flushed_eq (c : Dev nD) (t : Fin cfg0.N) :
    (dat0 (F := Ideal) V c).flushed 2 t
      = ((cfg0.win 2).blk t).view.read (Elt Ideal) (Cert.FoldedProj.foldedW (V c main_arg5) (V c main_arg8)) := by
  show (cfg0.win 2).cut (grid0.coords t) ((dat0 V c).after 2 t) = _
  rw [after0_2]
  unfold out0_2
  rw [View.canon_unit_zero origin]
  simp only [View.ld_unit_zero (S := S3072x512) origin, View.ld_unit_zero (S := S512x3072) origin]
  obtain ⟨e0, e1, e2, e3, e4, e5⟩ := moves t
  funext j
  show k0_pay1 (F := Ideal) (iblk0 V c 0 t) (iblk0 V c 1 t) j
    = Cert.FoldedProj.foldedW (V c main_arg5) (V c main_arg8) (((cfg0.win 2).blk t).view.emb j)
  refine (stored_at (V c main_arg5) (V c main_arg8) (iblk0 V c 0 t) (iblk0 V c 1 t)
    (win0_2.index t (0 : Fin 2)) (win0_2.index t (1 : Fin 2)) e4 e5
    (fun d p => read_wq V c t _ e4 e0 e1 d p) (fun q d => read_wo V c t _ e5 e2 e3 q d) j).trans ?_
  refine (folded_at _ _ _ _ _ ?_ ?_).symm
  · show win0_2.index t (0 : Fin 2) * 512 + 1 * (j 0).val = win0_2.index t (0 : Fin 2) * 512 + (j 0).val; omega
  · show win0_2.index t (1 : Fin 2) * 512 + 1 * (j 1).val = win0_2.index t (1 : Fin 2) * 512 + (j 1).val; omega

/-- An index of the table is in point t's block iff each coordinate is in the block's range on its axis. -/
theorem mem_blk (t : Fin cfg0.N) (i : S3072x3072.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The 36 blocks tile the table: index (r, s) is in block (r / 512, s / 512). -/
theorem covered (i : S3072x3072.Idx) :
    ∃ t : Fin cfg0.N, (cfg0.win 2).flush t = true ∧ i ∈ ((cfg0.win 2).blk t).view.set := by
  have hi0 : (i 0).val < 3072 := (i 0).isLt
  have hi1 : (i 1).val < 3072 := (i 1).isLt
  obtain ⟨t, ht⟩ := every_block ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE TABLE after the region: the folded table of the two weight tables as the region finds them. -/
theorem table (c : Dev nD) :
    (dat0 (F := Ideal) V c).arrAt 2 cfg0.N = Cert.FoldedProj.foldedW (V c main_arg5) (V c main_arg8) :=
  (dat0 (F := Ideal) V c).arrAt_eq_of_cover 2 _ (fun t _ => flushed_eq V c t) covered

end Cert.KernelIdeal.FoldValue

end
-- ==== Proof.RowsSpec.lean ====
/-
  The second half of the specification's vocabulary: one product of rows against a table.

  rowsTimes multiplies a matrix of 8192 rows (batch and position flattened together) by a 3072 × 3072 table;
  actTimes is the same product with batch and position kept as two axes. The single product against the folded
  table, oneStep, is actTimes at the folded table.
-/
import proofs.«137236_j29360396436022_2_alg».proof.Proof.Spec

noncomputable section

open scoped BigOperators

namespace Cert.FoldedProj

open Idealize.ShloMosaic Idealize.ShloMosaic.ValueIdx

/-- One entry of rows times table. -/
def rowsTimesAt (xr : Rows) (w : Wt) (r : Fin 8192) (o : Fin 3072) : EReal :=
  ∑ h : Fin 3072, xr (ix2 r h) * w (ix2 h o)

/-- Rows times table. -/
def rowsTimes (xr : Rows) (w : Wt) : Rows := fun j => rowsTimesAt xr w (j 0) (j 1)

/-- One entry of activations times table, batch and position kept apart. -/
def actTimesAt (x : Act) (w : Wt) (b : Fin 4) (t : Fin 2048) (o : Fin 3072) : EReal :=
  ∑ h : Fin 3072, x (ix3 b t h) * w (ix2 h o)

/-- Activations times table. -/
def actTimes (x : Act) (w : Wt) : Act := fun i => actTimesAt x w (i 0) (i 1) (i 2)

/-- The single product against the folded table is activations times the folded table. -/
theorem oneStep_eq_actTimes (x : Act) (wq wo : Wt) : oneStep x wq wo = actTimes x (foldedW wq wo) := rfl

end Cert.FoldedProj

end
-- ==== Proof.MainBlock.lean ====
/-
  The array the main kernel leaves behind, as one function of the flattened activations and the table it is given.

  The kernel runs on a grid of 32 points. At point R it is handed rows 256·R … 256·R+255 of the flattened
  activations (all 3072 columns) and the whole 3072 × 3072 table, and writes rows 256·R … 256·R+255 (all 3072
  columns) of an 8192 × 3072 array. Entry (r, o) of that block is row 256·R+r of the activations against column o
  of the table — which is entry (256·R+r, o) of rows times table of the specification. So every block written is
  the matching block of ONE whole-array function, and since the 32 blocks tile the array, the array ends holding
  that function everywhere.

  Everything is stated at the contents V the region finds its arrays at; nothing here looks at how V came about.
-/
import proofs.«137236_j29360396436022_2_alg».proof.Proof.Gen.KernelIdeal.Frame
import proofs.«137236_j29360396436022_2_alg».proof.Proof.Payloads
import proofs.«137236_j29360396436022_2_alg».proof.Proof.RowsSpec
import Idealize.ShloMosaic.Lib.Pipeline.Value

noncomputable section

open scoped BigOperators

namespace Cert.KernelIdeal.MainValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- How the three windows move over the grid, decided point by point: the activation window's block row is the
    output's block row and it stays on block column 0; the table window stays on its one block; the output stays on
    block column 0 and its block row is below 32. -/
theorem moves : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 31 :=
  (by decide +kernel : ∀ t : Fin grid1.N, _)

/-- Every block of the 32 × 1 tiling is some grid point's. -/
theorem every_block : ∀ (q0 : Fin 32), ∃ t : Fin cfg1.N, win1_2.index t = ![q0.val, 0] :=
  (by decide +kernel : ∀ (q0 : Fin 32), ∃ t : Fin grid1.N, win1_2.index t = ![q0.val, 0])

/-- The activation block at a point, entry (r, h): the activations at row 256·R + r and column h, R the point's
    block row. -/
theorem read_rows (c : Dev nD) (t : Fin cfg1.N) (R : Nat) (hR : R ≤ 31)
    (e0 : win1_0.index t (0 : Fin 2) = R) (e1 : win1_0.index t (1 : Fin 2) = 0) (r : Fin 256) (h : Fin 3072) :
    iblk1 V c 0 t (ix2 r h) = V c main_v1 (ix2 (⟨R * 256 + r.val, by omega⟩ : Fin 8192) h) := by
  show V c main_v1 (((cfg1.win 0).blk t).view.emb (ix2 r h)) = _
  refine congrArg (V c main_v1) (funext fun a => Fin.ext ?_)
  match a with
  | ⟨0, _⟩ => show win1_0.index t (0 : Fin 2) * 256 + 1 * r.val = R * 256 + r.val; omega
  | ⟨1, _⟩ => show win1_0.index t (1 : Fin 2) * 3072 + 1 * h.val = h.val; omega

/-- The table block at a point, entry (h, o): the table at (h, o), the block being the whole table. -/
theorem read_table (c : Dev nD) (t : Fin cfg1.N)
    (e0 : win1_1.index t (0 : Fin 2) = 0) (e1 : win1_1.index t (1 : Fin 2) = 0) (h o : Fin 3072) :
    iblk1 V c 1 t (ix2 h o) = V c main_v0 (ix2 h o) := by
  show V c main_v0 (((cfg1.win 1).blk t).view.emb (ix2 h o)) = _
  refine congrArg (V c main_v0) (funext fun a => Fin.ext ?_)
  match a with
  | ⟨0, _⟩ => show win1_1.index t (0 : Fin 2) * 3072 + 1 * h.val = h.val; omega
  | ⟨1, _⟩ => show win1_1.index t (1 : Fin 2) * 3072 + 1 * o.val = o.val; omega

/-- Rows times table at an index whose coordinates are known as numbers. -/
theorem rows_at (xr : Cert.FoldedProj.Rows) (w : Cert.FoldedProj.Wt) (i : S8192x3072.Idx) (r : Fin 8192) (o : Fin 3072)
    (h0 : (i 0).val = r.val) (h1 : (i 1).val = o.val) :
    Cert.FoldedProj.rowsTimes xr w i = Cert.FoldedProj.rowsTimesAt xr w r o := by
  have : i = ix2 r o := funext fun a => Fin.ext (by
    match a with
    | ⟨0, _⟩ => exact h0
    | ⟨1, _⟩ => exact h1)
  subst this
  rfl

/-- What a point stores, entry (r, o), from blocks that ARE the arrays read at the point's offsets: rows times
    table at (256·R + r, o). -/
theorem stored_entry (xr : Cert.FoldedProj.Rows) (w : Cert.FoldedProj.Wt)
    (x0 : Vec Ideal S256x3072 .f32) (x1 : Vec Ideal S3072x3072 .bf16) (R : Nat) (hR : R ≤ 31)
    (r0 : ∀ (r : Fin 256) (h : Fin 3072), x0 (ix2 r h) = xr (ix2 (⟨R * 256 + r.val, by omega⟩ : Fin 8192) h))
    (r1 : ∀ (h o : Fin 3072), x1 (ix2 h o) = w (ix2 h o))
    (r : Fin 256) (o : Fin 3072) :
    k1_pay1 (F := Ideal) x0 x1 (ix2 r o)
      = Cert.FoldedProj.rowsTimesAt xr w (⟨R * 256 + r.val, by omega⟩ : Fin 8192) o := by
  rw [Payloads.main_pay_apply]
  unfold Cert.FoldedProj.rowsTimesAt
  refine Finset.sum_congr rfl fun h _ => ?_
  rw [r0 r h, r1 h o]

/-- The same at any index j of the stored block, its two coordinates read as numbers. -/
theorem stored_at (xr : Cert.FoldedProj.Rows) (w : Cert.FoldedProj.Wt)
    (x0 : Vec Ideal S256x3072 .f32) (x1 : Vec Ideal S3072x3072 .bf16) (R : Nat) (hR : R ≤ 31)
    (r0 : ∀ (r : Fin 256) (h : Fin 3072), x0 (ix2 r h) = xr (ix2 (⟨R * 256 + r.val, by omega⟩ : Fin 8192) h))
    (r1 : ∀ (h o : Fin 3072), x1 (ix2 h o) = w (ix2 h o))
    (j : S256x3072.Idx) :
    k1_pay1 (F := Ideal) x0 x1 j
      = Cert.FoldedProj.rowsTimesAt xr w (⟨R * 256 + (j 0).val, by have h : (j 0).val < 256 := (j 0).isLt; omega⟩ : Fin 8192)
          (⟨(j 1).val, (j 1).isLt⟩ : Fin 3072) := by
  obtain ⟨r, o, rfl⟩ : ∃ (r : Fin 256) (o : Fin 3072), j = ix2 r o := ⟨j 0, j 1, eq_ix2 j⟩
  exact stored_entry xr w x0 x1 R hR r0 r1 r o

/-- WHAT POINT t WRITES BACK is block t of rows times table of the two arrays as the region finds them. -/
theorem flushed_eq (c : Dev nD) (t : Fin cfg1.N) :
    (dat1 (F := Ideal) V c).flushed 2 t
      = ((cfg1.win 2).blk t).view.read (Elt Ideal) (Cert.FoldedProj.rowsTimes (V c main_v1) (V c main_v0)) := by
  show (cfg1.win 2).cut (grid1.coords t) ((dat1 V c).after 2 t) = _
  rw [after1_2]
  unfold out1_2
  rw [View.canon_unit_zero origin]
  simp only [View.ld_unit_zero (S := S256x3072) origin, View.ld_unit_zero (S := S3072x3072) origin]
  obtain ⟨e0, e1, e2, e3, e4, e5⟩ := moves t
  funext j
  show k1_pay1 (F := Ideal) (iblk1 V c 0 t) (iblk1 V c 1 t) j
    = Cert.FoldedProj.rowsTimes (V c main_v1) (V c main_v0) (((cfg1.win 2).blk t).view.emb j)
  refine (stored_at (V c main_v1) (V c main_v0) (iblk1 V c 0 t) (iblk1 V c 1 t)
    (win1_2.index t (0 : Fin 2)) e5
    (fun r h => read_rows V c t _ e5 e0 e1 r h) (fun h o => read_table V c t e2 e3 h o) j).trans ?_
  refine (rows_at _ _ _ _ _ ?_ ?_).symm
  · show win1_2.index t (0 : Fin 2) * 256 + 1 * (j 0).val = win1_2.index t (0 : Fin 2) * 256 + (j 0).val; omega
  · show win1_2.index t (1 : Fin 2) * 3072 + 1 * (j 1).val = (j 1).val; omega

/-- An index of the array is in point t's block iff each coordinate is in the block's range on its axis. -/
theorem mem_blk (t : Fin cfg1.N) (i : S8192x3072.Idx) :
    i ∈ ((cfg1.win 2).blk t).view.set ↔ ∀ a : Fin 2, win1_2.index t a * S256x3072.size a ≤ (i a).val ∧ (i a).val < win1_2.index t a * S256x3072.size a + S256x3072.size a := by
  show i ∈ ((View.whole main_v2).slice (win1_2.rect t)).set ↔ _
  rw [View.set_slice_whole, Rect.mem_set_unit]
  exact Iff.rfl

/-- The 32 blocks tile the array: index (r, o) is in block (r / 256, 0). -/
theorem covered (i : S8192x3072.Idx) :
    ∃ t : Fin cfg1.N, (cfg1.win 2).flush t = true ∧ i ∈ ((cfg1.win 2).blk t).view.set := by
  have hi0 : (i 0).val < 8192 := (i 0).isLt
  have hi1 : (i 1).val < 3072 := (i 1).isLt
  obtain ⟨t, ht⟩ := every_block ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 3072 ≤ (i 1).val ∧ (i 1).val < win1_2.index t (1 : Fin 2) * 3072 + 3072; omega

/-- THE ARRAY after the region: rows times table of the flattened activations and the table as the region finds
    them. -/
theorem rows (c : Dev nD) :
    (dat1 (F := Ideal) V c).arrAt 2 cfg1.N = Cert.FoldedProj.rowsTimes (V c main_v1) (V c main_v0) :=
  (dat1 (F := Ideal) V c).arrAt_eq_of_cover 2 _ (fun t _ => flushed_eq V c t) covered

end Cert.KernelIdeal.MainValue

end
-- ==== Proof.Reshape.lean ====
/-
  Flattening batch and position into one row axis, multiplying the rows by a table, and unflattening again
  is multiplying the activations by the table with the two axes kept apart.

  A reshape keeps the row-major position of every entry. Entry (b, t, o) of an array of shape [4, 2048, 3072]
  sits at position (b · 2048 + t) · 3072 + o, and so does entry (b · 2048 + t, o) of an array of shape
  [8192, 3072]. Hence entry (b, t, o) of the unflattened product is entry (b · 2048 + t, o) of the product,
  the sum over h of xr(b · 2048 + t, h) · w(h, o), and xr(b · 2048 + t, h), an entry of the flattened
  activations, is x(b, t, h).
-/
import proofs.«137236_j29360396436022_2_alg».proof.Proof.RowsSpec
import Idealize.ShloMosaic.Lib.Pipeline.Value
import Idealize.ShloMosaic.Lib.ValueIdx

noncomputable section

open scoped BigOperators

namespace Cert.FoldedProj

open Idealize.ShloMosaic Idealize.ShloMosaic.ValueIdx

/-- The row that batch `b` and position `t` flatten to. -/
def rowOf (b : Fin 4) (t : Fin 2048) : Fin 8192 := ⟨b.val * 2048 + t.val, by omega⟩

/-- The row-major position of entry (b, t, o) of an array of shape [4, 2048, 3072]. -/
theorem rowMajor_ix3 (b : Fin 4) (t : Fin 2048) (o : Fin 3072) :
    ((⟨3, ![4, 2048, 3072]⟩ : Shape).rowMajor (ix3 b t o)).val = (b.val * 2048 + t.val) * 3072 + o.val := by
  rw [Shape.rowMajor_val_three]
  rfl

/-- The row-major position of entry (r, o) of an array of shape [8192, 3072]. -/
theorem rowMajor_ix2 (r : Fin 8192) (o : Fin 3072) :
    ((⟨2, ![8192, 3072]⟩ : Shape).rowMajor (ix2 r o)).val = r.val * 3072 + o.val := by
  rw [Shape.rowMajor_val_two]
  rfl

/-- The flattened activations at row `rowOf b t`, column `h`, are the activations at (b, t, h): the two entries
    have the same row-major position. -/
theorem flatten_apply (x : Act) (h1 : (⟨3, ![4, 2048, 3072]⟩ : Shape).ShapeCasts ⟨2, ![8192, 3072]⟩)
    (b : Fin 4) (t : Fin 2048) (h : Fin 3072) :
    shapeCast (⟨2, ![8192, 3072]⟩ : Shape) x h1 (ix2 (rowOf b t) h) = x (ix3 b t h) :=
  shapeCast_apply x h1 (ix2 (rowOf b t) h) (ix3 b t h) (by rw [rowMajor_ix3, rowMajor_ix2]; rfl)

/-- A matrix of 8192 rows unflattened, at (b, t, o), is the matrix at row `rowOf b t`, column `o`. -/
theorem unflatten_apply (y : Rows) (h2 : (⟨2, ![8192, 3072]⟩ : Shape).ShapeCasts ⟨3, ![4, 2048, 3072]⟩)
    (b : Fin 4) (t : Fin 2048) (o : Fin 3072) :
    shapeCast (⟨3, ![4, 2048, 3072]⟩ : Shape) y h2 (ix3 b t o) = y (ix2 (rowOf b t) o) :=
  shapeCast_apply y h2 (ix3 b t o) (ix2 (rowOf b t) o) (by rw [rowMajor_ix3, rowMajor_ix2]; rfl)

/-- Flatten, multiply the rows by the table, unflatten: the activations times the table. Entry (b, t, o) of the
    left side is entry (rowOf b t, o) of the product of rows, a sum over `h` whose term at `h` has the flattened
    activations at (rowOf b t, h), which are the activations at (b, t, h): term by term the sum on the right. -/
theorem unflatten_rowsTimes_flatten (x : Act) (w : Wt)
    (h1 : (⟨3, ![4, 2048, 3072]⟩ : Shape).ShapeCasts ⟨2, ![8192, 3072]⟩)
    (h2 : (⟨2, ![8192, 3072]⟩ : Shape).ShapeCasts ⟨3, ![4, 2048, 3072]⟩) :
    shapeCast (⟨3, ![4, 2048, 3072]⟩ : Shape) (rowsTimes (shapeCast (⟨2, ![8192, 3072]⟩ : Shape) x h1) w) h2
      = actTimes x w := by
  funext i
  obtain ⟨b, t, o, rfl⟩ : ∃ (b : Fin 4) (t : Fin 2048) (o : Fin 3072), i = ix3 b t o :=
    ⟨i 0, i 1, i 2, eq_ix3 i⟩
  rw [unflatten_apply]
  show rowsTimesAt (shapeCast (⟨2, ![8192, 3072]⟩ : Shape) x h1) w (rowOf b t) o = actTimesAt x w b t o
  unfold rowsTimesAt actTimesAt
  exact Finset.sum_congr rfl fun h _ => by rw [flatten_apply]

end Cert.FoldedProj

end
-- ==== Proof.KernelValue.lean ====
/-
  What the last boundary's contents hold at the result buffer, read back through the program's four segments.

  The result buffer is written by the last host operation, a reshape of the main region's output to
  [4, 2048, 3072]. The main region's output is, by the main kernel's block-to-array fact, the product of the row
  matrix it finds in its first array with the table it finds in its second. The row matrix was written by the
  host reshape before the region, from the activations, which nothing before it touches; the table was written
  by the folding region, whose block-to-array fact says it is the folded table of the two weight arguments, and the
  reshape in between leaves it alone. Flattening, multiplying rows by the table, and unflattening is the single
  product of the activations against the folded table.
-/
import proofs.«137236_j29360396436022_2_alg».proof.Proof.Gen.KernelIdeal.Frame
import proofs.«137236_j29360396436022_2_alg».proof.Proof.FoldBlock
import proofs.«137236_j29360396436022_2_alg».proof.Proof.MainBlock
import proofs.«137236_j29360396436022_2_alg».proof.Proof.Reshape
import proofs.«137236_j29360396436022_2_alg».proof.Proof.RowsSpec
import Idealize.ShloMosaic.Lib.StableHlo.Run

noncomputable section

namespace Cert.KernelIdeal.ResultValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The main region finds, in its first array, the activations flattened to 8192 rows. -/
theorem rows_in (c : Dev nD) :
    (V2 m ρ c main_v1 : S8192x3072.Idx → EReal)
      = shapeCast S8192x3072 (m ((c : Thread nD τ).loc main_arg0)) shapeCasts_S4x2048x3072_S8192x3072 := by
  show StableHlo.after hostOps1 (W1 m ρ c) (Proc.devRef .tc main_v1) = _
  after_results
  rw [W1_of_ne m ρ c main_arg0 (by decide)]
  rfl

/-- The main region finds, in its second array, the folded table of the two weight arguments. -/
theorem table_in (c : Dev nD) :
    (V2 m ρ c main_v0 : S3072x3072.Idx → EReal)
      = Cert.FoldedProj.foldedW (m ((c : Thread nD τ).loc main_arg5)) (m ((c : Thread nD τ).loc main_arg8)) := by
  show StableHlo.after hostOps1 (W1 m ρ c) (Proc.devRef .tc main_v0) = _
  after_results
  rw [show W1 m ρ c (Proc.devRef .tc main_v0) = (dat0 (V0 m ρ) c).arrAt 2 cfg0.N from W1_arr m ρ c 2]
  exact FoldValue.table (V0 m ρ) c

/-- THE RESULT: the last boundary's contents at the result buffer are the single product of the activations
    against the folded table of the two weight arguments. -/
theorem result_value (c : Dev nD) :
    (W4 m ρ c (Proc.devRef .tc main_v3) : S4x2048x3072.Idx → EReal)
      = Cert.FoldedProj.oneStep (m ((c : Thread nD τ).loc main_arg0)) (m ((c : Thread nD τ).loc main_arg5))
          (m ((c : Thread nD τ).loc main_arg8)) := by
  show StableHlo.after hostOps2 (W3 m ρ c) (Proc.devRef .tc main_v3) = _
  after_results
  rw [show W3 m ρ c (Proc.devRef .tc main_v2) = (dat1 (V2 m ρ) c).arrAt 2 cfg1.N from W3_arr m ρ c 2]
  rw [MainValue.rows (V2 m ρ) c, rows_in m ρ c, table_in m ρ c, Cert.FoldedProj.oneStep_eq_actTimes]
  exact Cert.FoldedProj.unflatten_rowsTimes_flatten _ _ _ _

end Cert.KernelIdeal.ResultValue

end
-- ==== Proof.RefValue.lean ====
/-
  The reference program, read one stage at a time, computes the specification's two projections with the scale
  between them.

  The reference projects the activations x by wq, splits the feature axis of the result into 24 groups of 128,
  exchanges the group axis with the position axis, multiplies every entry by one fixed number, exchanges the two
  axes back, merges the 24 groups of 128 into one feature axis again, and projects by wo. Splitting, exchanging,
  exchanging back and merging only move entries, and together they move every entry back to where it was: the entry
  at (b, t, d) of the merged array is the entry at (b, t, d) of the first projection, times the scale. Hence

      result (b, t, o) = Σ_d ((Σ_h x(b,t,h) · wq(d,h)) · scale) · wo(o,d),

  which is `Cert.FoldedProj.twoStep`.
-/
import proofs.«137236_j29360396436022_2_alg».proof.Proof.Gen.ReferenceIdeal.Read
import proofs.«137236_j29360396436022_2_alg».proof.Proof.Spec

noncomputable section

open scoped BigOperators

namespace Cert.ReferenceIdeal.RefValue

open Cert.ReferenceIdeal Cert.ReferenceIdeal.Read Idealize.ShloMosaic Idealize.ShloMosaic.ValueIdx

/-- Merging 24 groups of 128 into a feature axis of 3072, exchanging the group and position axes, exchanging them
    back and splitting the feature axis again returns every index to itself. With N = (b·2048 + t)·3072 + d the
    flat position, the split index is (N / 6291456, N / 3072 % 2048, N / 128 % 24, N % 128); the two exchanges
    cancel; and the flat position of the split index is N again, whose three coordinates are b, t and d. -/
theorem roundtrip_idx (b : Fin 4) (t : Fin 2048) (d : Fin 3072) :
    idx_main_v3 (idx_main_v4 (idx_main_v15 (idx_main_v16 (ix3 b t d)))) = ix3 b t d := by
  have hb : b.val < 4 := b.isLt
  have ht : t.val < 2048 := t.isLt
  have hd : d.val < 3072 := d.isLt
  funext a
  apply Fin.ext
  match a with
  | ⟨0, _⟩ =>
    show (((((b.val * 2048 + t.val) * 3072 + d.val) / 6291456 * 2048 + ((b.val * 2048 + t.val) * 3072 + d.val) / 3072 % 2048) * 24 + ((b.val * 2048 + t.val) * 3072 + d.val) / 128 % 24) * 128 + ((b.val * 2048 + t.val) * 3072 + d.val) % 128) / 6291456 = b.val
    omega
  | ⟨1, _⟩ =>
    show (((((b.val * 2048 + t.val) * 3072 + d.val) / 6291456 * 2048 + ((b.val * 2048 + t.val) * 3072 + d.val) / 3072 % 2048) * 24 + ((b.val * 2048 + t.val) * 3072 + d.val) / 128 % 24) * 128 + ((b.val * 2048 + t.val) * 3072 + d.val) % 128) / 3072 % 2048 = t.val
    omega
  | ⟨2, _⟩ =>
    show (((((b.val * 2048 + t.val) * 3072 + d.val) / 6291456 * 2048 + ((b.val * 2048 + t.val) * 3072 + d.val) / 3072 % 2048) * 24 + ((b.val * 2048 + t.val) * 3072 + d.val) / 128 % 24) * 128 + ((b.val * 2048 + t.val) * 3072 + d.val) % 128) % 3072 = d.val
    omega

/-- The reference's result is the specification's two projections with the scale between them: at (b, t, o) it is
    the sum over d of the scaled first projection at (b, t, d) times wo(o, d), and the scaled first projection at
    (b, t, d) is (Σ_h x(b,t,h) · wq(d,h)) · scale because the layout stages between the two products cancel. -/
theorem result_is_twoStep (x0 : (⟨S4x2048x3072, .f32⟩ : BufTy).Contents (Elt Ideal)) (x5 x8 : (⟨S3072x3072, .f32⟩ : BufTy).Contents (Elt Ideal)) :
    val_main_v17 (F := Ideal) x0 x5 x8 = Cert.FoldedProj.twoStep x0 x5 x8 := by
  funext i
  obtain ⟨b, t, o, rfl⟩ : ∃ (b : Fin 4) (t : Fin 2048) (o : Fin 3072), i = ix3 b t o := ⟨i 0, i 1, i 2, eq_ix3 i⟩
  -- the second product, as a sum over d
  rw [val_main_v17_apply]
  show _ = Cert.FoldedProj.twoStepAt x0 x5 x8 b t o
  unfold Cert.FoldedProj.twoStepAt
  refine Finset.sum_congr rfl fun d _ => ?_
  -- its operands are read at (b, t, d) and at (o, d)
  have hl : lidx_main_v17 (ix3 b t o) d = ix3 b t d := funext fun a => Fin.ext (by
    match a with
    | ⟨0, _⟩ => rfl
    | ⟨1, _⟩ => rfl
    | ⟨2, _⟩ => rfl)
  have hr : ridx_main_v17 (ix3 b t o) d = ix2 o d := funext fun a => Fin.ext (by
    match a with
    | ⟨0, _⟩ => rfl
    | ⟨1, _⟩ => rfl)
  -- merge, exchange, multiply by the scale, exchange, split: back at (b, t, d) of the first product
  rw [hl, hr, val_main_v16_apply, val_main_v15_apply, val_main_v14_apply, val_main_v4_apply, val_main_v3_apply,
    val_main_v13_apply, val_main_cst_apply, roundtrip_idx, val_main_v0_apply]
  -- the first product, as a sum over h, reads x at (b, t, h) and wq at (d, h)
  have hl0 : ∀ k : Fin 3072, lidx_main_v0 (ix3 b t d) k = ix3 b t k := fun k => funext fun a => Fin.ext (by
    match a with
    | ⟨0, _⟩ => rfl
    | ⟨1, _⟩ => rfl
    | ⟨2, _⟩ => rfl)
  have hr0 : ∀ k : Fin 3072, ridx_main_v0 (ix3 b t d) k = ix2 d k := fun k => funext fun a => Fin.ext (by
    match a with
    | ⟨0, _⟩ => rfl
    | ⟨1, _⟩ => rfl)
  -- at the extended reals the product is the product and the scale's word is read exactly
  simp only [hl0, hr0, Ideal.mulf_def, Ideal.ofBits_def, Cert.FoldedProj.scale]

end Cert.ReferenceIdeal.RefValue

end
-- ==== Proof.Finite.lean ====
/-
  Under the precondition that every float argument is finite, every entry of the activations and of
  the two weight tables is a real number.

  The precondition is a conjunction (by `and` on one-bit words) of seven tests, one per float argument
  `a`: the `and` over all indices of the comparison `|a| < +inf`. At the extended reals the absolute value
  of `x` is `max x (-x)`, the word `0x7F800000` denotes `⊤`, and the comparison is the strict order.
  So each test that holds says `max (a i) (-(a i)) < ⊤` at every index `i`, which excludes `a i = ⊤`
  and `a i = ⊥`: the entry is the image of a real number.
-/
import Idealize.ShloMosaic.Lib.ReduceAll
import Idealize.ShloMosaic.Lib.ValueIdx
import Idealize.ShloMosaic.PureOps.Ideal
import proofs.«137236_j29360396436022_2_alg».proof.Pre_finite_inputs

namespace Cert.FiniteEntries

open Idealize.ShloMosaic

/-- The f32 word `0x7F800000` (sign 0, exponent all ones, fraction 0) denotes `+∞`. -/
theorem inf_word : Ideal.ofBits .f32 0x7F800000#32 = (⊤ : EReal) := by
  simp [Ideal.ofBits, Ideal.ieee]

/-- An extended real whose absolute value `max x (-x)` is strictly below `⊤` is a real number:
    at `⊥` and at `⊤` the absolute value is `⊤`. -/
theorem real_of_abs_lt_top (x : EReal) (h : max x (-x) < ⊤) : ∃ r : ℝ, x = (r : EReal) := by
  induction x using EReal.rec with
  | bot => simp at h
  | top => simp at h
  | coe r => exact ⟨r, rfl⟩

/-- The element fact: if the comparison `|x| < +inf` on one extended real gives the word 1, then `x` is real. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_word] at h'
  unfold Ideal.cmp at h'
  by_cases hlt : max x (-x) < ⊤
  · exact real_of_abs_lt_top x hlt
  · simp [hlt] at h'

/-- The rank-0 shape has one index. -/
instance : Subsingleton Cert.Pre_finite_inputs.S_.Idx := ⟨fun a b => funext fun d => d.elim0⟩

/-- An `and` of two arrays of one-bit words that is 1 at an index has both operands 1 there. -/
theorem andi_apply_eq_one {s : Shape} (x y : IVec s 1) (i : s.Idx) (h : andi x y i = 1#1) :
    x i = 1#1 ∧ y i = 1#1 :=
  IntOp.andi_eq_one.1 h

/-- One test of the precondition, over an array `a` of any shape `s`: if the `and` over all indices of
    `|a| < +inf` is 1, then every entry of `a` is real. The `and` over all indices being 1 makes the comparison 1
    at each index `i`; there it compares `max (a i) (-(a i))` with the value of the word `0x7F800000`. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (h : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, a i = (r : EReal) :=
  real_of_cmp (a i) (Host.reduce_andi_all _ _ hr hu ValueIdx.ix0 h i)

/-- Under the precondition, every entry of the activations `a0` and of the weight tables `a5` and `a8` is a
    real number. The precondition's word at its one index is an `and` of seven tests; it being 1 makes each of
    them 1, and the tests of `a0`, `a5` and `a8` are the three wanted (the other four are dropped). -/
theorem real_entries [Cert.Pre_finite_inputs.Facts]
    (a0 : FVec Ideal Cert.Pre_finite_inputs.S4x2048x3072 .f32) (a1 : FVec Ideal Cert.Pre_finite_inputs.S4x2048x128 .f32)
    (a2 a3 : IVec Cert.Pre_finite_inputs.S4 32) (a4 : FVec Ideal Cert.Pre_finite_inputs.S4x2x8x4096x128 .f32)
    (a5 : FVec Ideal Cert.Pre_finite_inputs.S3072x3072 .f32) (a6 a7 : FVec Ideal Cert.Pre_finite_inputs.S1024x3072 .f32)
    (a8 : FVec Ideal Cert.Pre_finite_inputs.S3072x3072 .f32)
    (h : Cert.Pre_finite_inputs.fn (F := Ideal) a0 a1 a2 a3 a4 a5 a6 a7 a8 = (fun _ => 1#1)) :
    (∀ i, ∃ r : ℝ, a0 i = (r : EReal)) ∧ (∀ j, ∃ r : ℝ, a5 j = (r : EReal)) ∧ (∀ j, ∃ r : ℝ, a8 j = (r : EReal)) := by
  have h0 := congrFun h ValueIdx.ix0
  dsimp only [Cert.Pre_finite_inputs.fn, Cert.Pre_finite_inputs.fn_part1] at h0
  -- the outermost `and`: the test of `a8`; then those of `a7`, `a6` (dropped), `a5`, `a4`, `a1` (dropped), `a0`
  obtain ⟨h0, h8⟩ := andi_apply_eq_one _ _ _ h0
  obtain ⟨h0, -⟩ := andi_apply_eq_one _ _ _ h0
  obtain ⟨h0, -⟩ := andi_apply_eq_one _ _ _ h0
  obtain ⟨h0, h5⟩ := andi_apply_eq_one _ _ _ h0
  obtain ⟨h0, -⟩ := andi_apply_eq_one _ _ _ h0
  obtain ⟨h0, -⟩ := andi_apply_eq_one _ _ _ h0
  exact ⟨real_of_all _ _ _ a0 h0, real_of_all _ _ _ a5 h5, real_of_all _ _ _ a8 h8⟩

end Cert.FiniteEntries
-- ==== Proof.lean ====
/-
  A two-kernel program against a plain reference, equal at the extended reals on finite inputs.

  Both programs take activations x [4, 2048, 3072] and two weight tables wq, wo [3072, 3072] (and further arguments
  that never reach a result), and return an array of x's shape together with one argument array unchanged.

  The reference projects x by wq, multiplies every entry by one fixed scale, and projects by wo:
      Σ_d ((Σ_h x(b,t,h) · wq(d,h)) · scale) · wo(o,d).
  The kernel program first folds the two tables and the scale into one table, (Σ_d wq(d,h) · wo(o,d)) · scale, block
  by block on a 6 × 6 grid; flattens batch and position of x into 8192 rows; multiplies the rows by the folded table,
  256 rows at a grid point; and unflattens the product:
      Σ_h x(b,t,h) · ((Σ_d wq(d,h) · wo(o,d)) · scale).
  The scale is the same single-precision word in both programs, a finite number. The two expressions are one double
  sum once the products are distributed over the inner sums and the sums exchanged; on the extended reals that
  needs every entry to be a real number, which is what the precondition (every float input finite) gives.

  The three frames: the two kernel programs' are the generated frame certificates; the reference has no kernel and
  its frame is its generated run with the results dropped. The idealization rewrote nothing, so there is nothing to
  preserve. The modules: Spec and RowsSpec (the two arrangements and the law between them), Payloads (what each
  kernel body stores, at an index), FoldBlock and MainBlock (each region's output array as one function of what the
  region finds), Reshape (flatten, multiply, unflatten), KernelRun (the program's run with its result named),
  KernelValue (that result read back to the arguments), RefValue (the reference's stages are the specification),
  Finite (finite inputs have real entries).
-/
import proofs.«137236_j29360396436022_2_alg».proof.Defs
import proofs.«137236_j29360396436022_2_alg».proof.Proof.Gen.Kernel
import proofs.«137236_j29360396436022_2_alg».proof.Proof.Gen.Kernel.Skeleton
import proofs.«137236_j29360396436022_2_alg».proof.Proof.Gen.Kernel.Launch
import proofs.«137236_j29360396436022_2_alg».proof.Proof.Gen.Kernel.Points
import proofs.«137236_j29360396436022_2_alg».proof.Proof.Gen.Kernel.Frame
import proofs.«137236_j29360396436022_2_alg».proof.Proof.Gen.KernelIdeal
import proofs.«137236_j29360396436022_2_alg».proof.Proof.Gen.KernelIdeal.Skeleton
import proofs.«137236_j29360396436022_2_alg».proof.Proof.Gen.KernelIdeal.Launch
import proofs.«137236_j29360396436022_2_alg».proof.Proof.Gen.KernelIdeal.Points
import proofs.«137236_j29360396436022_2_alg».proof.Proof.Gen.KernelIdeal.Frame
import proofs.«137236_j29360396436022_2_alg».proof.Proof.Gen.ReferenceIdeal
import proofs.«137236_j29360396436022_2_alg».proof.Proof.Gen.Pre_finite_inputs
import proofs.«137236_j29360396436022_2_alg».proof.Proof.Gen.ReferenceIdeal.Run
import proofs.«137236_j29360396436022_2_alg».proof.Proof.Gen.ReferenceIdeal.Read
import proofs.«137236_j29360396436022_2_alg».proof.Proof.Spec
import proofs.«137236_j29360396436022_2_alg».proof.Proof.KernelRun
import proofs.«137236_j29360396436022_2_alg».proof.Proof.KernelValue
import proofs.«137236_j29360396436022_2_alg».proof.Proof.RefValue
import proofs.«137236_j29360396436022_2_alg».proof.Proof.Finite
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, both programs end with the two projections with the scale between
    them, of the kernel program's own arguments, and with the passed-through argument array. The kernel program's
    result is the single product against the folded table, which on real entries is that array; the reference's
    result is that array stage by stage, of arguments that agree with the kernel program's. -/
theorem algebraic : Cert.algebraic_KernelIdeal_ReferenceIdeal := by
  intro m ρ m' ρ' hpre hagree
  refine ⟨fun c => Cert.FoldedProj.twoStep
      (m ((c.tc : Thread Cert.KernelIdeal.nD Cert.KernelIdeal.τ).loc Cert.KernelIdeal.main_arg0))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg8)),
    fun c => m ((c.tc : Thread Cert.KernelIdeal.nD Cert.KernelIdeal.τ).loc Cert.KernelIdeal.main_arg4), ?_, ?_⟩
  · refine (θ_run Cert.KernelIdeal.defs _ _).mono (fun r h c => ?_) (Cert.KernelIdeal.RunValue.run_named (F := Ideal) m ρ)
    obtain ⟨hv, h0, h1, h2, h3, h4, h5, h6, h7, h8⟩ := h c
    obtain ⟨hx, hq, ho⟩ := Cert.FiniteEntries.real_entries _ _ _ _ _ _ _ _ _ (hpre c)
    refine ⟨?_, h4, h0, h1, h2, h3, h4, h5, h6, h7, h8⟩
    rw [hv, Cert.KernelIdeal.ResultValue.result_value m ρ c]
    exact Cert.FoldedProj.oneStep_eq_twoStep _ _ _ hx hq ho
  · refine (θ_run Cert.ReferenceIdeal.defs _ _).mono (fun r h c => ?_) (Cert.ReferenceIdeal.Value.run (F := Ideal) m' ρ')
    obtain ⟨hv, hkept, hargs⟩ := h c
    refine ⟨?_, hkept.trans (hagree c).2.2.2.2.1, hargs⟩
    rw [hv, Cert.ReferenceIdeal.Read.val_main_v17_eq, Cert.ReferenceIdeal.RefValue.result_is_twoStep,
      (hagree c).1, (hagree c).2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
